-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S2048 : Shape := ⟨1, ![2048]⟩
abbrev S2048x2048 : Shape := ⟨2, ![2048, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .f32) (main_arg5 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S4096x2048 .f32) (main_arg1 : FVec F S4096x2048 .f32) (main_arg2 : FVec F S2048x4096 .f32) (main_arg3 : FVec F S2048 .f32) (main_arg4 : FVec F S2048x2048 .f32) (main_arg5 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S4096x2048 : Shape := ⟨2, ![4096, 2048]⟩
abbrev S2048x4096 : Shape := ⟨2, ![2048, 4096]⟩
abbrev S2048 : Shape := ⟨1, ![2048]⟩
abbrev S2048x2048 : Shape := ⟨2, ![2048, 2048]⟩
abbrev S1x2048 : Shape := ⟨2, ![1, 2048]⟩
abbrev S256x2048 : Shape := ⟨2, ![256, 2048]⟩

abbrev nBuf : Space → Nat
  | .hbm => 17
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x4096, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048x2048, .bf16⟩
  | .hbm, ⟨8, _⟩ => ⟨S2048x2048, .f32⟩
  | .hbm, ⟨9, _⟩ => ⟨S2048x2048, .bf16⟩
  | .hbm, ⟨10, _⟩ => ⟨S2048x2048, .bf16⟩
  | .hbm, ⟨11, _⟩ => ⟨S4096x2048, .bf16⟩
  | .hbm, ⟨12, _⟩ => ⟨S4096x2048, .bf16⟩
  | .hbm, ⟨13, _⟩ => ⟨S1x2048, .f32⟩
  | .hbm, ⟨14, _⟩ => ⟨S1x2048, .f32⟩
  | .hbm, ⟨15, _⟩ => ⟨S4096x2048, .f32⟩
  | .hbm, ⟨16, _⟩ => ⟨S4096x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2048x4096_S2048x2048_0_0 : S2048x4096.Slices ![0, 0] S2048x2048
  bitsLt_bf16_f32 : FTy.bits .bf16 < FTy.bits .f32
  slices_S2048x4096_S2048x2048_0_2048 : S2048x4096.Slices ![0, 2048] S2048x2048
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .bf16 = 32 ∨ (Rect.block (s := S4096x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .bf16 = 32 ∨ (Rect.block (s := S4096x2048) S256x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S4096x2048.size a
  hwx0_7 : ∀ i : grid0.Coords, EltTy.bits .f32 = 32 ∨ (Rect.block (s := S4096x2048) S256x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S4096x2048.size a
  hwx0_8 : ∀ i : grid0.Coords, EltTy.bits .f32 = 32 ∨ (Rect.block (s := S4096x2048) S256x2048.size (cc0_transform_8 i) (hinb0_8 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_v5) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S256x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x4096 : Shape := ⟨2, ![2048, 4096]⟩
abbrev S2048 : Shape := ⟨1, ![2048]⟩
abbrev S2048x2048 : Shape := ⟨2, ![2048, 2048]⟩
abbrev S4096x4096 : Shape := ⟨2, ![4096, 4096]⟩
abbrev S1x2048 : Shape := ⟨2, ![1, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x4096, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S4096x4096, .f32⟩
  | .hbm, ⟨7, _⟩ => ⟨S4096x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S1x2048, .f32⟩
  | .hbm, ⟨14, _⟩ => ⟨S4096x2048, .f32⟩
  | .hbm, ⟨15, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x4096_S2048x4096_S4096x2048_1_1_0_0_n_n_wf : DotDims.WF S4096x4096 S2048x4096 S4096x2048 [1] [1] [0] [0] [] []
  dot_S4096x2048_S2048x2048_S4096x2048_1_1_0_0_n_n_wf : DotDims.WF S4096x2048 S2048x2048 S4096x2048 [1] [1] [0] [0] [] []

variable [Facts₀]

def dot_S4096x4096_S2048x4096_S4096x2048_1_1_0_0_n_n : DotDims S4096x4096 S2048x4096 S4096x2048 where
  lhsContracting := [1]
  rhsContracting := [1]
  lhsNonContracting := [0]
  rhsNonContracting := [0]
  lhsBatch := []
  rhsBatch := []
  wf := dot_S4096x4096_S2048x4096_S4096x2048_1_1_0_0_n_n_wf
def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf

class Facts : Prop extends Facts₀ where

variable [Facts]
-- ==== Proof.Payload.lean ====
/-
  What the kernel body computes for one batch tile, entry by entry, on the extended reals.

  The body holds a tile of 256 rows of `x` and of `h`, the two halves `Wx`, `Wh` of the joint weight, the output
  weight `Wo` and the two bias rows. Each of its three products contracts the LAST axis of both operands,
  `(l · rᵀ) (p, q) = ∑ₖ l (p, k) · r (q, k)`, accumulated from zero. So at row `p` of the tile:

      hidden (p, q) = tanh ((∑ₖ x (p, k) · Wx (q, k) + ∑ₖ h (p, k) · Wh (q, k)) + b (0, q))
      out (p, o)    = ∑ₖ hidden (p, k) · Wo (o, k) + bo (0, o)

  (a change of float format is the identity on the extended reals, so the rounding of the hidden tile before
  the last product does nothing here).
-/
import proofs.«133029_j32607391711506_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx Idealize.ShloMosaic.TcCoe

/-- The dimension numbers of the body's three products: a [256, 2048] tile against a [2048, 2048] matrix,
    contracting axis 1 of both. -/
abbrev dims : DotDims S256x2048 S2048x2048 S256x2048 := dot_S256x2048_S2048x2048_S256x2048_1_1_0_0_n_n

theorem lhs_row (i : S256x2048.Idx) (q : dims.contr.Idx) : (dims.lhsIdx i q 0).val = (i 0).val := by
  unfold DotDims.lhsIdx
  rw [dif_neg (show ¬(0 : Fin S256x2048.rank) ∈ dims.lhsBatch by decide), dif_pos (show (0 : Fin S256x2048.rank) ∈ dims.lhsNonContracting by decide)]
  rfl
theorem lhs_col (i : S256x2048.Idx) (q : dims.contr.Idx) : (dims.lhsIdx i q 1).val = (q ⟨0, by decide⟩).val :=
  dims.lhsIdx_val_of_single rfl i q
theorem rhs_row (i : S256x2048.Idx) (q : dims.contr.Idx) : (dims.rhsIdx i q 0).val = (i 1).val := by
  unfold DotDims.rhsIdx
  rw [dif_neg (show ¬(0 : Fin S2048x2048.rank) ∈ dims.rhsBatch by decide), dif_pos (show (0 : Fin S2048x2048.rank) ∈ dims.rhsNonContracting by decide)]
  rfl
theorem rhs_col (i : S256x2048.Idx) (q : dims.contr.Idx) : (dims.rhsIdx i q 1).val = (q ⟨0, by decide⟩).val :=
  dims.rhsIdx_val_of_single rfl i q

/-- A product of the body, accumulated from zero, at `(p, q)`: row `p` of the left operand against row `q` of
    the right one. -/
theorem matmul_rows_apply (l : FVec Ideal S256x2048 .bf16) (r : FVec Ideal S2048x2048 .bf16) (p : Fin 256) (q : Fin 2048) :
    matmul dims none l r (constant (F := Ideal) S256x2048 .f32 0x00000000#32) (ix2 p q)
      = ∑ k : Fin 2048, l (ix2 p k) * r (ix2 q k) := by
  show FloatOps.matmul dims none l r (constant (F := Ideal) S256x2048 .f32 0x00000000#32) (ix2 p q) = _
  rw [Ideal.matmul_constant_zero_apply, ← Equiv.sum_comp (contrEquiv1 dims 2048 rfl rfl).symm]
  refine Finset.sum_congr rfl fun k _ => ?_
  have hk := contrEquiv1_symm_val dims 2048 rfl rfl k
  have el : dims.lhsIdx (ix2 p q) ((contrEquiv1 dims 2048 rfl rfl).symm k) = ix2 p k := funext fun a => Fin.ext (by
    match a with
    | ⟨0, _⟩ => exact lhs_row _ _
    | ⟨1, _⟩ => exact (lhs_col _ _).trans hk)
  have er : dims.rhsIdx (ix2 p q) ((contrEquiv1 dims 2048 rfl rfl).symm k) = ix2 q k := funext fun a => Fin.ext (by
    match a with
    | ⟨0, _⟩ => exact rhs_row _ _
    | ⟨1, _⟩ => exact (rhs_col _ _).trans hk)
  rw [el, er]

/-- The hidden tile the body stores, at row `p` of the tile and hidden unit `q`. -/
theorem hidden_apply (x h : FVec Ideal S256x2048 .bf16) (Wx Wh : FVec Ideal S2048x2048 .bf16) (b : FVec Ideal S1x2048 .f32)
    (p : Fin 256) (q : Fin 2048) :
    k0_pay1 (F := Ideal) x Wx h Wh b (ix2 p q)
      = Ideal.tanh ((∑ k : Fin 2048, x (ix2 p k) * Wx (ix2 q k) + ∑ k : Fin 2048, h (ix2 p k) * Wh (ix2 q k)) + b (ix2 (0 : Fin 1) q)) := by
  unfold k0_pay1
  simp only [shapeCast_self]
  show Ideal.tanh ((matmul dims none x Wx (constant (F := Ideal) S256x2048 .f32 0x00000000#32) (ix2 p q)
      + matmul dims none h Wh (constant (F := Ideal) S256x2048 .f32 0x00000000#32) (ix2 p q))
      + broadcastTo S256x2048 b broadcasts_S1x2048_S256x2048 (ix2 p q)) = _
  rw [matmul_rows_apply, matmul_rows_apply, broadcastTo_1b_ab_apply]

/-- The output tile the body stores, at row `p` of the tile and output unit `o`, over the hidden tile. -/
theorem out_apply (x h : FVec Ideal S256x2048 .bf16) (Wx Wh Wo : FVec Ideal S2048x2048 .bf16) (b bo : FVec Ideal S1x2048 .f32)
    (p : Fin 256) (o : Fin 2048) :
    k0_pay2 (F := Ideal) x Wx h Wh b Wo bo (ix2 p o)
      = (∑ k : Fin 2048, k0_pay1 (F := Ideal) x Wx h Wh b (ix2 p k) * Wo (ix2 o k)) + bo (ix2 (0 : Fin 1) o) := by
  unfold k0_pay2
  simp only [shapeCast_self]
  show matmul dims none (truncf .bf16 (k0_pay1 (F := Ideal) x Wx h Wh b) bitsLt_bf16_f32) Wo (constant (F := Ideal) S256x2048 .f32 0x00000000#32) (ix2 p o)
      + broadcastTo S256x2048 bo broadcasts_S1x2048_S256x2048 (ix2 p o) = _
  rw [matmul_rows_apply, broadcastTo_1b_ab_apply]
  rfl

end Cert.KernelIdeal.Payload

end
-- ==== Proof.Spec.lean ====
/-
  The recurrent cell as one function of its six arguments, entry by entry, on the extended reals.

  With `x, h : [4096, 2048]` (input and previous hidden state, one row per batch element), the joint weight
  `W : [2048, 4096]` whose first 2048 columns act on `x` and whose last 2048 act on `h`, and the biases:

      pre (p, q)      = (∑ₖ x (p, k) · W (q, k)  +  ∑ₖ h (p, k) · W (q, 2048 + k))  +  b (q)
      newHidden (p,q) = tanh (pre (p, q))
      output (p, o)   = ∑ₖ newHidden (p, k) · Wo (o, k)  +  bo (o)

  The law that joins the two programs is the splitting of a sum over 4096 columns into the sum over the
  first 2048 and the sum over the last 2048 (`sum_halves`): it holds in any commutative additive monoid,
  so on the extended reals no finiteness is needed.
-/
import Idealize.ShloMosaic.PureOps.Ideal
import Idealize.ShloMosaic.Lib.ValueIdx

noncomputable section

namespace Cert.RnnCell

open Idealize.ShloMosaic Idealize.ShloMosaic.ValueIdx

/-- Column `k` of the joint weight's first half (the columns that multiply `x`). -/
abbrev colX (k : Fin 2048) : Fin 4096 := ⟨k.val, by omega⟩
/-- Column `2048 + k` of the joint weight: column `k` of its second half (the columns that multiply `h`). -/
abbrev colH (k : Fin 2048) : Fin 4096 := ⟨2048 + k.val, by omega⟩

/-- A sum over the 4096 joint columns is the sum over the first half plus the sum over the second half. -/
theorem sum_halves {M : Type} [AddCommMonoid M] (f : Fin 4096 → M) :
    ∑ k : Fin 4096, f k = ∑ k : Fin 2048, f (colX k) + ∑ k : Fin 2048, f (colH k) :=
  Fin.sum_univ_add (a := 2048) (b := 2048) f

variable (x h : (⟨2, ![4096, 2048]⟩ : Shape).Idx → EReal) (W : (⟨2, ![2048, 4096]⟩ : Shape).Idx → EReal)
  (b : (⟨1, ![2048]⟩ : Shape).Idx → EReal) (Wo : (⟨2, ![2048, 2048]⟩ : Shape).Idx → EReal) (bo : (⟨1, ![2048]⟩ : Shape).Idx → EReal)

/-- The pre-activation of hidden unit `q` for batch row `p`. -/
def preact (p : Fin 4096) (q : Fin 2048) : EReal :=
  (∑ k : Fin 2048, x (ix2 p k) * W (ix2 q (colX k)) + ∑ k : Fin 2048, h (ix2 p k) * W (ix2 q (colH k))) + b (ix1 q)

/-- The new hidden state at `(p, q)`. -/
def newHiddenAt (p : Fin 4096) (q : Fin 2048) : EReal := Ideal.tanh (preact x h W b p q)

/-- The output at `(p, o)`. -/
def outputAt (p : Fin 4096) (o : Fin 2048) : EReal :=
  (∑ k : Fin 2048, newHiddenAt x h W b p k * Wo (ix2 o k)) + bo (ix1 o)

/-- The new hidden state, as an array. -/
def newHidden : (⟨2, ![4096, 2048]⟩ : Shape).Idx → EReal := fun i => newHiddenAt x h W b (i 0) (i 1)

/-- The output, as an array. -/
def output : (⟨2, ![4096, 2048]⟩ : Shape).Idx → EReal := fun i => outputAt x h W b Wo bo (i 0) (i 1)

theorem newHidden_ix2 (p : Fin 4096) (q : Fin 2048) : newHidden x h W b (ix2 p q) = newHiddenAt x h W b p q := rfl
theorem output_ix2 (p : Fin 4096) (o : Fin 2048) : output x h W b Wo bo (ix2 p o) = outputAt x h W b Wo bo p o := rfl

end Cert.RnnCell

end
-- ==== Proof.Tile.lean ====
/-
  One batch tile of the kernel against the specification.

  Suppose the tiles the body holds are what the grid point `T` stages: rows `256·T … 256·T + 255` of `x` and of
  `h`; the first and the last 2048 columns of the joint weight; the output weight; the bias vectors as one-row
  matrices. Then the hidden tile the body stores is rows `256·T …` of the specification's new hidden state, and
  the output tile is the same rows of the specification's output: each entry depends on ONE batch row only, so
  tiling the batch changes nothing.
-/
import proofs.«133029_j32607391711506_2_alg».proof.Proof.Payload
import proofs.«133029_j32607391711506_2_alg».proof.Proof.Spec

noncomputable section

namespace Cert.KernelIdeal.Tile

open Cert.KernelIdeal Cert.KernelIdeal.Gen Cert.RnnCell Idealize.ShloMosaic Idealize.ShloMosaic.ValueIdx Idealize.ShloMosaic.TcCoe

variable (X H : (⟨2, ![4096, 2048]⟩ : Shape).Idx → EReal) (W : (⟨2, ![2048, 4096]⟩ : Shape).Idx → EReal)
  (B : (⟨1, ![2048]⟩ : Shape).Idx → EReal) (WO : (⟨2, ![2048, 2048]⟩ : Shape).Idx → EReal) (BO : (⟨1, ![2048]⟩ : Shape).Idx → EReal)
  (x h : FVec Ideal S256x2048 .bf16) (Wx Wh Wo : FVec Ideal S2048x2048 .bf16) (b bo : FVec Ideal S1x2048 .f32)

/-- Row `r` of tile `T` is batch row `256·T + r`. -/
abbrev batchRow (T : Fin 16) (r : Fin 256) : Fin 4096 := ⟨T.val * 256 + r.val, by omega⟩

/-- The hidden tile at grid point `T` is the specification's new hidden state on that tile's rows. -/
theorem hidden_tile (T : Fin 16)
    (hx : ∀ (r : Fin 256) (k : Fin 2048), x (ix2 r k) = X (ix2 (batchRow T r) k))
    (hh : ∀ (r : Fin 256) (k : Fin 2048), h (ix2 r k) = H (ix2 (batchRow T r) k))
    (hWx : ∀ (q k : Fin 2048), Wx (ix2 q k) = W (ix2 q (colX k)))
    (hWh : ∀ (q k : Fin 2048), Wh (ix2 q k) = W (ix2 q (colH k)))
    (hb : ∀ q : Fin 2048, b (ix2 (0 : Fin 1) q) = B (ix1 q))
    (r : Fin 256) (q : Fin 2048) :
    k0_pay1 (F := Ideal) x Wx h Wh b (ix2 r q) = newHiddenAt X H W B (batchRow T r) q := by
  rw [Payload.hidden_apply]
  unfold newHiddenAt preact
  simp only [hx, hh, hWx, hWh, hb]

/-- The output tile at grid point `T` is the specification's output on that tile's rows. -/
theorem output_tile (T : Fin 16)
    (hx : ∀ (r : Fin 256) (k : Fin 2048), x (ix2 r k) = X (ix2 (batchRow T r) k))
    (hh : ∀ (r : Fin 256) (k : Fin 2048), h (ix2 r k) = H (ix2 (batchRow T r) k))
    (hWx : ∀ (q k : Fin 2048), Wx (ix2 q k) = W (ix2 q (colX k)))
    (hWh : ∀ (q k : Fin 2048), Wh (ix2 q k) = W (ix2 q (colH k)))
    (hb : ∀ q : Fin 2048, b (ix2 (0 : Fin 1) q) = B (ix1 q))
    (hWo : ∀ (o k : Fin 2048), Wo (ix2 o k) = WO (ix2 o k))
    (hbo : ∀ o : Fin 2048, bo (ix2 (0 : Fin 1) o) = BO (ix1 o))
    (r : Fin 256) (o : Fin 2048) :
    k0_pay2 (F := Ideal) x Wx h Wh b Wo bo (ix2 r o) = outputAt X H W B WO BO (batchRow T r) o := by
  rw [Payload.out_apply]
  unfold outputAt
  rw [hbo]
  refine congrArg (· + BO (ix1 o)) (Finset.sum_congr rfl fun k _ => ?_)
  rw [hidden_tile X H W B x h Wx Wh b T hx hh hWx hWh hb r k, hWo]

end Cert.KernelIdeal.Tile

end
-- ==== Proof.Blocks.lean ====
/-
  From the kernel's batch tiles to its two result arrays.

  The launch runs the body at 16 grid points. Point `t` stages rows `256·t … 256·t + 255` of `x` and of `h`, and
  the same whole weight and bias blocks at every point; it writes back rows `256·t …` of both results. Before
  the launch the host only re-lays the arguments: the joint weight is cut into its first and last 2048
  columns, the bias vectors become one-row matrices, and every change of float format is the identity on the
  extended reals. So every staged tile is a block of an argument array (`blk_*`), the tile lemmas apply, and
  what point `t` writes back is block `t` of the specification (`flushed_*`). The 16 row blocks cover the
  [4096, 2048] results (row `i` lies in block `i / 256`), hence each result array ends as the specification's
  array (`final_*`), and the kernel's run is restated with those arrays (`run`).
-/
import proofs.«133029_j32607391711506_2_alg».proof.Proof.Gen.KernelIdeal.Value
import proofs.«133029_j32607391711506_2_alg».proof.Proof.Tile
import Idealize.ShloMosaic.Lib.ValueLayout
import Idealize.ShloMosaic.Lib.StableHlo.Run

noncomputable section

namespace Cert.KernelIdeal.Blocks

open Cert.KernelIdeal Cert.KernelIdeal.Gen Cert.RnnCell Cert.KernelIdeal.Tile
open Idealize.ShloMosaic Idealize.ShloMosaic.ValueIdx Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The argument arrays, as the launch memory holds them -/

abbrev argX (c : Dev nD) : (⟨2, ![4096, 2048]⟩ : Shape).Idx → EReal := m ((c : Thread nD τ).loc main_arg0)
abbrev argH (c : Dev nD) : (⟨2, ![4096, 2048]⟩ : Shape).Idx → EReal := m ((c : Thread nD τ).loc main_arg1)
abbrev argW (c : Dev nD) : (⟨2, ![2048, 4096]⟩ : Shape).Idx → EReal := m ((c : Thread nD τ).loc main_arg2)
abbrev argB (c : Dev nD) : (⟨1, ![2048]⟩ : Shape).Idx → EReal := m ((c : Thread nD τ).loc main_arg3)
abbrev argWo (c : Dev nD) : (⟨2, ![2048, 2048]⟩ : Shape).Idx → EReal := m ((c : Thread nD τ).loc main_arg4)
abbrev argBo (c : Dev nD) : (⟨1, ![2048]⟩ : Shape).Idx → EReal := m ((c : Thread nD τ).loc main_arg5)

/-! ## The arrays the region finds: the host's re-laying of the arguments, read at an entry -/

theorem entry_x (c : Dev nD) (i : S4096x2048.Idx) : V m c main_v5 i = argX m c i := by
  have e : @Eq (S4096x2048.Idx → EReal) (V m c main_v5) (truncf (F := Ideal) (s := S4096x2048) (φ := .f32) .bf16 (argX m c) bitsLt_bf16_f32) := by
    dsimp only [Gen.V, Gen.hostOps0]; after_results
  exact congrFun e i

theorem entry_h (c : Dev nD) (i : S4096x2048.Idx) : V m c main_v6 i = argH m c i := by
  have e : @Eq (S4096x2048.Idx → EReal) (V m c main_v6) (truncf (F := Ideal) (s := S4096x2048) (φ := .f32) .bf16 (argH m c) bitsLt_bf16_f32) := by
    dsimp only [Gen.V, Gen.hostOps0]; after_results
  exact congrFun e i

theorem entry_Wx (c : Dev nD) (q k : Fin 2048) : V m c main_v1 (ix2 q k) = argW m c (ix2 q (colX k)) := by
  have e : @Eq (S2048x2048.Idx → EReal) (V m c main_v1)
      (truncf (F := Ideal) (s := S2048x2048) (φ := .f32) .bf16 (extractStridedSlice S2048x2048 ![0, 0] (argW m c) slices_S2048x4096_S2048x2048_0_0) bitsLt_bf16_f32) := by
    dsimp only [Gen.V, Gen.hostOps0]; after_results
  refine (congrFun e (ix2 q k)).trans ?_
  exact slice2_axis1_apply (n0 := 2048) (n1 := 4096) (m := 2048) 0 (argW m c) slices_S2048x4096_S2048x2048_0_0 q k (colX k) (Nat.zero_add _).symm

theorem entry_Wh (c : Dev nD) (q k : Fin 2048) : V m c main_v3 (ix2 q k) = argW m c (ix2 q (colH k)) := by
  have e : @Eq (S2048x2048.Idx → EReal) (V m c main_v3)
      (truncf (F := Ideal) (s := S2048x2048) (φ := .f32) .bf16 (extractStridedSlice S2048x2048 ![0, 2048] (argW m c) slices_S2048x4096_S2048x2048_0_2048) bitsLt_bf16_f32) := by
    dsimp only [Gen.V, Gen.hostOps0]; after_results
  refine (congrFun e (ix2 q k)).trans ?_
  exact slice2_axis1_apply (n0 := 2048) (n1 := 4096) (m := 2048) 2048 (argW m c) slices_S2048x4096_S2048x2048_0_2048 q k (colH k) rfl

theorem entry_Wo (c : Dev nD) (i : S2048x2048.Idx) : V m c main_v4 i = argWo m c i := by
  have e : @Eq (S2048x2048.Idx → EReal) (V m c main_v4) (truncf (F := Ideal) (s := S2048x2048) (φ := .f32) .bf16 (argWo m c) bitsLt_bf16_f32) := by
    dsimp only [Gen.V, Gen.hostOps0]; after_results
  exact congrFun e i

theorem entry_b (c : Dev nD) (q : Fin 2048) : V m c main_v7 (ix2 (0 : Fin 1) q) = argB m c (ix1 q) := by
  have e : (V m c main_v7 : S1x2048.Idx → EReal) = shapeCast S1x2048 (argB m c) shapeCasts_S2048_S1x2048 := by
    dsimp only [Gen.V, Gen.hostOps0]; after_results; rfl
  refine (congrFun e (ix2 (0 : Fin 1) q)).trans ?_
  exact shapeCast_a_1a_apply (argB m c) shapeCasts_S2048_S1x2048 0 q

theorem entry_bo (c : Dev nD) (o : Fin 2048) : V m c main_v8 (ix2 (0 : Fin 1) o) = argBo m c (ix1 o) := by
  have e : (V m c main_v8 : S1x2048.Idx → EReal) = shapeCast S1x2048 (argBo m c) shapeCasts_S2048_S1x2048 := by
    dsimp only [Gen.V, Gen.hostOps0]; after_results; rfl
  refine (congrFun e (ix2 (0 : Fin 1) o)).trans ?_
  exact shapeCast_a_1a_apply (argBo m c) shapeCasts_S2048_S1x2048 0 o

/-! ## Which block each window stages at a grid point -/

/-- The printed index maps, decided over the 16 grid points: the two activation windows and the two result
    windows are at block row `t`, block column 0; the weight and bias windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- A grid point as a tile number below 16. -/
abbrev tile (t : Fin cfg0.N) : Fin 16 := Fin.cast N_0 t

/-! ## Each staged tile is a block of an argument array -/

theorem blk_x (c : Dev nD) (t : Fin cfg0.N) (r : Fin 256) (k : Fin 2048) :
    iblk m c 0 t (ix2 r k) = argX m c (ix2 (batchRow (tile t) r) k) := by
  show V m c main_v5 (((cfg0.win 0).blk t).view.emb (ix2 r k)) = _
  refine (entry_x m c _).trans ?_
  obtain ⟨e0, e1, -⟩ := idx_facts t
  refine congrArg (argX m c) (funext fun a => Fin.ext ?_)
  match a with
  | ⟨0, _⟩ => show win0_0.index t (0 : Fin 2) * 256 + 1 * r.val = t.val * 256 + r.val; rw [e0]; omega
  | ⟨1, _⟩ => show win0_0.index t (1 : Fin 2) * 2048 + 1 * k.val = k.val; rw [e1]; omega

theorem blk_h (c : Dev nD) (t : Fin cfg0.N) (r : Fin 256) (k : Fin 2048) :
    iblk m c 1 t (ix2 r k) = argH m c (ix2 (batchRow (tile t) r) k) := by
  show V m c main_v6 (((cfg0.win 1).blk t).view.emb (ix2 r k)) = _
  refine (entry_h m c _).trans ?_
  obtain ⟨-, -, e0, e1, -⟩ := idx_facts t
  refine congrArg (argH m c) (funext fun a => Fin.ext ?_)
  match a with
  | ⟨0, _⟩ => show win0_1.index t (0 : Fin 2) * 256 + 1 * r.val = t.val * 256 + r.val; rw [e0]; omega
  | ⟨1, _⟩ => show win0_1.index t (1 : Fin 2) * 2048 + 1 * k.val = k.val; rw [e1]; omega

theorem blk_Wx (c : Dev nD) (t : Fin cfg0.N) (q k : Fin 2048) :
    iblk m c 2 t (ix2 q k) = argW m c (ix2 q (colX k)) := by
  show V m c main_v1 (((cfg0.win 2).blk t).view.emb (ix2 q k)) = _
  obtain ⟨-, -, -, -, e0, e1, -⟩ := idx_facts t
  have he : ((cfg0.win 2).blk t).view.emb (ix2 q k) = ix2 q k := funext fun a => Fin.ext (by
    match a with
    | ⟨0, _⟩ => show win0_2.index t (0 : Fin 2) * 2048 + 1 * q.val = q.val; rw [e0]; omega
    | ⟨1, _⟩ => show win0_2.index t (1 : Fin 2) * 2048 + 1 * k.val = k.val; rw [e1]; omega)
  exact (congrArg (V m c main_v1) he).trans (entry_Wx m c q k)

theorem blk_Wh (c : Dev nD) (t : Fin cfg0.N) (q k : Fin 2048) :
    iblk m c 3 t (ix2 q k) = argW m c (ix2 q (colH k)) := by
  show V m c main_v3 (((cfg0.win 3).blk t).view.emb (ix2 q k)) = _
  obtain ⟨-, -, -, -, -, -, e0, e1, -⟩ := idx_facts t
  have he : ((cfg0.win 3).blk t).view.emb (ix2 q k) = ix2 q k := funext fun a => Fin.ext (by
    match a with
    | ⟨0, _⟩ => show win0_3.index t (0 : Fin 2) * 2048 + 1 * q.val = q.val; rw [e0]; omega
    | ⟨1, _⟩ => show win0_3.index t (1 : Fin 2) * 2048 + 1 * k.val = k.val; rw [e1]; omega)
  exact (congrArg (V m c main_v3) he).trans (entry_Wh m c q k)

theorem blk_Wo (c : Dev nD) (t : Fin cfg0.N) (o k : Fin 2048) :
    iblk m c 4 t (ix2 o k) = argWo m c (ix2 o k) := by
  show V m c main_v4 (((cfg0.win 4).blk t).view.emb (ix2 o k)) = _
  obtain ⟨-, -, -, -, -, -, -, -, e0, e1, -⟩ := idx_facts t
  have he : ((cfg0.win 4).blk t).view.emb (ix2 o k) = ix2 o k := funext fun a => Fin.ext (by
    match a with
    | ⟨0, _⟩ => show win0_4.index t (0 : Fin 2) * 2048 + 1 * o.val = o.val; rw [e0]; omega
    | ⟨1, _⟩ => show win0_4.index t (1 : Fin 2) * 2048 + 1 * k.val = k.val; rw [e1]; omega)
  exact (congrArg (V m c main_v4) he).trans (entry_Wo m c _)

theorem blk_b (c : Dev nD) (t : Fin cfg0.N) (q : Fin 2048) :
    iblk m c 5 t (ix2 (0 : Fin 1) q) = argB m c (ix1 q) := by
  show V m c main_v7 (((cfg0.win 5).blk t).view.emb (ix2 (0 : Fin 1) q)) = _
  obtain ⟨-, -, -, -, -, -, -, -, -, -, e0, e1, -⟩ := idx_facts t
  have he : ((cfg0.win 5).blk t).view.emb (ix2 (0 : Fin 1) q) = ix2 (0 : Fin 1) q := funext fun a => Fin.ext (by
    match a with
    | ⟨0, _⟩ => show win0_5.index t (0 : Fin 2) * 1 + 1 * 0 = 0; rw [e0]
    | ⟨1, _⟩ => show win0_5.index t (1 : Fin 2) * 2048 + 1 * q.val = q.val; rw [e1]; omega)
  exact (congrArg (V m c main_v7) he).trans (entry_b m c q)

theorem blk_bo (c : Dev nD) (t : Fin cfg0.N) (o : Fin 2048) :
    iblk m c 6 t (ix2 (0 : Fin 1) o) = argBo m c (ix1 o) := by
  show V m c main_v8 (((cfg0.win 6).blk t).view.emb (ix2 (0 : Fin 1) o)) = _
  obtain ⟨-, -, -, -, -, -, -, -, -, -, -, -, e0, e1, -⟩ := idx_facts t
  have he : ((cfg0.win 6).blk t).view.emb (ix2 (0 : Fin 1) o) = ix2 (0 : Fin 1) o := funext fun a => Fin.ext (by
    match a with
    | ⟨0, _⟩ => show win0_6.index t (0 : Fin 2) * 1 + 1 * 0 = 0; rw [e0]
    | ⟨1, _⟩ => show win0_6.index t (1 : Fin 2) * 2048 + 1 * o.val = o.val; rw [e1]; omega)
  exact (congrArg (V m c main_v8) he).trans (entry_bo m c o)

/-! ## What a grid point writes back is a block of the specification -/

theorem hz : (![0, 0] : Fin 2 → Nat) = fun _ => 0 := funext fun a => by fin_cases a <;> rfl

/-- The hidden tile of point `t`, at an entry of the tile, is the specification's new hidden state at the
    array entry that tile entry is written to. -/
theorem hidden_block (c : Dev nD) (t : Fin cfg0.N) (y : S256x2048.Idx) :
    k0_pay1 (F := Ideal) (iblk m c 0 t) (iblk m c 2 t) (iblk m c 1 t) (iblk m c 3 t) (iblk m c 5 t) y
      = newHidden (argX m c) (argH m c) (argW m c) (argB m c) (((cfg0.win 8).blk t).view.emb y) := by
  obtain ⟨r, q, rfl⟩ : ∃ (r : Fin 256) (q : Fin 2048), y = ix2 r q := ⟨y 0, y 1, eq_ix2 y⟩
  refine (hidden_tile (argX m c) (argH m c) (argW m c) (argB m c) (iblk m c 0 t) (iblk m c 1 t) (iblk m c 2 t) (iblk m c 3 t)
    (iblk m c 5 t) (tile t) (blk_x m c t) (blk_h m c t) (blk_Wx m c t) (blk_Wh m c t) (blk_b m c t) r q).trans ?_
  obtain ⟨-, -, -, -, -, -, -, -, -, -, -, -, -, -, -, -, e0, e1⟩ := idx_facts t
  refine congrArg₂ (newHiddenAt (argX m c) (argH m c) (argW m c) (argB m c)) (Fin.ext ?_) (Fin.ext ?_)
  · show t.val * 256 + r.val = win0_8.index t (0 : Fin 2) * 256 + 1 * r.val; rw [e0]; omega
  · show q.val = win0_8.index t (1 : Fin 2) * 2048 + 1 * q.val; rw [e1]; omega

/-- The output tile of point `t`, likewise. -/
theorem output_block (c : Dev nD) (t : Fin cfg0.N) (y : S256x2048.Idx) :
    k0_pay2 (F := Ideal) (iblk m c 0 t) (iblk m c 2 t) (iblk m c 1 t) (iblk m c 3 t) (iblk m c 5 t) (iblk m c 4 t) (iblk m c 6 t) y
      = output (argX m c) (argH m c) (argW m c) (argB m c) (argWo m c) (argBo m c) (((cfg0.win 7).blk t).view.emb y) := by
  obtain ⟨r, o, rfl⟩ : ∃ (r : Fin 256) (o : Fin 2048), y = ix2 r o := ⟨y 0, y 1, eq_ix2 y⟩
  refine (output_tile (argX m c) (argH m c) (argW m c) (argB m c) (argWo m c) (argBo m c) (iblk m c 0 t) (iblk m c 1 t)
    (iblk m c 2 t) (iblk m c 3 t) (iblk m c 4 t) (iblk m c 5 t) (iblk m c 6 t) (tile t) (blk_x m c t) (blk_h m c t) (blk_Wx m c t)
    (blk_Wh m c t) (blk_b m c t) (blk_Wo m c t) (blk_bo m c t) r o).trans ?_
  obtain ⟨-, -, -, -, -, -, -, -, -, -, -, -, -, -, e0, e1, -⟩ := idx_facts t
  refine congrArg₂ (outputAt (argX m c) (argH m c) (argW m c) (argB m c) (argWo m c) (argBo m c)) (Fin.ext ?_) (Fin.ext ?_)
  · show t.val * 256 + r.val = win0_7.index t (0 : Fin 2) * 256 + 1 * r.val; rw [e0]; omega
  · show o.val = win0_7.index t (1 : Fin 2) * 2048 + 1 * o.val; rw [e1]; omega

/-- Point `t` writes back block `t` of the specification's new hidden state. -/
theorem flushed_hidden (c : Dev nD) (t : Fin cfg0.N) :
    (dats m 0 c).flushed 8 t
      = ((cfg0.win 8).blk t).view.read (Elt Ideal) (newHidden (argX m c) (argH m c) (argW m c) (argB m c)) := by
  rw [Value.flushed8]
  unfold out0_8
  rw [View.canon_unit_zero hz]
  simp only [View.ld_unit_zero (S := S256x2048) hz, View.ld_unit_zero (S := S2048x2048) hz, View.ld_unit_zero (S := S1x2048) hz]
  funext j
  exact hidden_block m c t j

/-- Point `t` writes back block `t` of the specification's output. -/
theorem flushed_output (c : Dev nD) (t : Fin cfg0.N) :
    (dats m 0 c).flushed 7 t
      = ((cfg0.win 7).blk t).view.read (Elt Ideal) (output (argX m c) (argH m c) (argW m c) (argB m c) (argWo m c) (argBo m c)) := by
  rw [Value.flushed7]
  unfold out0_7
  rw [View.canon_unit_zero hz]
  simp only [View.ld_unit_zero (S := S256x2048) hz, View.ld_unit_zero (S := S2048x2048) hz, View.ld_unit_zero (S := S1x2048) hz]
  funext j
  exact output_block m c t j

/-! ## The row blocks cover the result arrays -/

theorem mem_blk8 (t : Fin cfg0.N) (i : S4096x2048.Idx) :
    i ∈ ((cfg0.win 8).blk t).view.set ↔ ∀ a : Fin 2, win0_8.index t a * S256x2048.size a ≤ (i a).val ∧ (i a).val < win0_8.index t a * S256x2048.size a + S256x2048.size a := by
  show i ∈ ((View.whole main_v9_1).slice (win0_8.rect t)).set ↔ _
  rw [View.set_slice_whole, Rect.mem_set_unit]
  exact Iff.rfl

theorem mem_blk7 (t : Fin cfg0.N) (i : S4096x2048.Idx) :
    i ∈ ((cfg0.win 7).blk t).view.set ↔ ∀ a : Fin 2, win0_7.index t a * S256x2048.size a ≤ (i a).val ∧ (i a).val < win0_7.index t a * S256x2048.size a + S256x2048.size a := by
  show i ∈ ((View.whole main_v9_0).slice (win0_7.rect t)).set ↔ _
  rw [View.set_slice_whole, Rect.mem_set_unit]
  exact Iff.rfl

/-- Row `i` of the new hidden state lies in the block of point `i / 256`. -/
theorem cover8 (i : S4096x2048.Idx) : ∃ t : Fin cfg0.N, (cfg0.win 8).flush t = true ∧ i ∈ ((cfg0.win 8).blk t).view.set := by
  have hi0 : (i 0).val < 4096 := (i 0).isLt
  have hi1 : (i 1).val < 2048 := (i 1).isLt
  obtain ⟨t, ht⟩ : ∃ t : Fin cfg0.N, t.val = (i 0).val / 256 := ⟨⟨(i 0).val / 256, by show _ < grid0.N; rw [N_0]; omega⟩, rfl⟩
  refine ⟨t, flush0_8 t, ?_⟩
  rw [mem_blk8]
  obtain ⟨-, -, -, -, -, -, -, -, -, -, -, -, -, -, -, -, e0, e1⟩ := idx_facts t
  intro a
  match a with
  | ⟨0, _⟩ => show win0_8.index t (0 : Fin 2) * 256 ≤ (i 0).val ∧ (i 0).val < win0_8.index t (0 : Fin 2) * 256 + 256; rw [e0]; omega
  | ⟨1, _⟩ => show win0_8.index t (1 : Fin 2) * 2048 ≤ (i 1).val ∧ (i 1).val < win0_8.index t (1 : Fin 2) * 2048 + 2048; rw [e1]; omega

/-- Row `i` of the output lies in the block of point `i / 256`. -/
theorem cover7 (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht⟩ : ∃ t : Fin cfg0.N, t.val = (i 0).val / 256 := ⟨⟨(i 0).val / 256, by show _ < grid0.N; rw [N_0]; omega⟩, rfl⟩
  refine ⟨t, flush0_7 t, ?_⟩
  rw [mem_blk7]
  obtain ⟨-, -, -, -, -, -, -, -, -, -, -, -, -, -, e0, e1, -⟩ := idx_facts t
  intro a
  match a with
  | ⟨0, _⟩ => show win0_7.index t (0 : Fin 2) * 256 ≤ (i 0).val ∧ (i 0).val < win0_7.index t (0 : Fin 2) * 256 + 256; rw [e0]; omega
  | ⟨1, _⟩ => show win0_7.index t (1 : Fin 2) * 2048 ≤ (i 1).val ∧ (i 1).val < win0_7.index t (1 : Fin 2) * 2048 + 2048; rw [e1]; omega

/-! ## The result arrays after the run -/

theorem final_hidden (c : Dev nD) :
    (dats m 0 c).arrAt 8 cfg0.N = newHidden (argX m c) (argH m c) (argW m c) (argB m c) :=
  (dats m 0 c).arrAt_eq_of_cover 8 _ (fun t _ => flushed_hidden m c t) cover8

theorem final_output (c : Dev nD) :
    (dats m 0 c).arrAt 7 cfg0.N = output (argX m c) (argH m c) (argW m c) (argB m c) (argWo m c) (argBo m c) :=
  (dats m 0 c).arrAt_eq_of_cover 7 _ (fun t _ => flushed_output m c t) cover7

/-- The kernel's run: every weakly fair execution terminates with the two results at the specification's
    arrays of the arguments, the arguments unchanged. -/
theorem run : θ_run defs (onTc (τ := τ) (main (F := Ideal))) ⟨m, fun _ => 0, ρ⟩ fun r => ∀ c : Dev nD,
      r.2.mem ((c : Thread nD τ).loc main_v9_0) = output (argX m c) (argH m c) (argW m c) (argB m c) (argWo m c) (argBo m c)
      ∧ r.2.mem ((c : Thread nD τ).loc main_v9_1) = newHidden (argX m c) (argH m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_output m c), (h c).2.1.trans (final_hidden m c), (h c).2.2⟩)
    (Value.run_blocks m ρ)

end Cert.KernelIdeal.Blocks

end
-- ==== Proof.LibConcatCols.lean ====
/-
  Two matrices with the same number of rows laid side by side (a concatenation along axis 1), read at an
  entry: the entry in row `p` and column `c` of `[x₁ | x₂]` is `x₁ (p, c)` when `c` is a column of the first
  matrix, and `x₂ (p, c - n₁)` when it lies past the first matrix's `n₁` columns. General in the extents.
-/
import Idealize.ShloMosaic.Lib.Pipeline.Value
import Idealize.ShloMosaic.Lib.ValueIdx

namespace Idealize.ShloMosaic.ValueIdx

open Idealize.ShloMosaic

variable {α : Type}

/-- Row `p`, column `c` of `[x₁ | x₂]`, for a column `c` of the first matrix (`c = k < n₁`), is `x₁ (p, k)`. -/
theorem concatenate_cols_left {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₁) (hc : c.val = k.val) :
    concatenate (⟨2, ![a, N]⟩ : Shape) 1 [⟨(⟨2, ![a, n₁]⟩ : Shape), x₁⟩, ⟨(⟨2, ![a, n₂]⟩ : Shape), x₂⟩] h (ix2 p c) = x₁ (ix2 p k) :=
  concatenate_pair_apply_left 1 x₁ x₂ h _ rfl _ (fun b => by
    match b with
    | ⟨0, _⟩ => rfl
    | ⟨1, _⟩ => exact hc.symm)

/-- Row `p`, column `c` of `[x₁ | x₂]`, for a column past the first matrix (`c = n₁ + k`), is `x₂ (p, k)`. -/
theorem concatenate_cols_right {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₂) (hc : k.val + n₁ = c.val) :
    concatenate (⟨2, ![a, N]⟩ : Shape) 1 [⟨(⟨2, ![a, n₁]⟩ : Shape), x₁⟩, ⟨(⟨2, ![a, n₂]⟩ : Shape), x₂⟩] h (ix2 p c) = x₂ (ix2 p k) :=
  concatenate_pair_apply_right 1 x₁ x₂ h _ rfl rfl _
    (fun b hb => by
      match b with
      | ⟨0, _⟩ => rfl
      | ⟨1, _⟩ => exact absurd rfl hb)
    hc

end Idealize.ShloMosaic.ValueIdx
-- ==== Proof.RefValue.lean ====
/-
  The reference computes the cell's specification.

  The reference joins `x` and `h` side by side into one `[4096, 4096]` matrix and contracts it with the joint
  weight over all 4096 columns. Split that sum into its two halves: on the first 2048 columns the joined
  matrix reads `x`, on the last 2048 it reads `h` at the column less 2048 — the specification's two sums. The
  bias row is broadcast over the batch, `tanh` is applied entry by entry, and the output product contracts the
  hidden axis against the rows of the output weight.
-/
import proofs.«133029_j32607391711506_2_alg».proof.Proof.Gen.ReferenceIdeal.Read
import proofs.«133029_j32607391711506_2_alg».proof.Proof.Spec
import proofs.«133029_j32607391711506_2_alg».proof.Proof.LibConcatCols

noncomputable section

namespace Cert.ReferenceIdeal.RefValue

open Cert.ReferenceIdeal Cert.ReferenceIdeal.Gen Cert.ReferenceIdeal.Read Cert.RnnCell
open Idealize.ShloMosaic Idealize.ShloMosaic.ValueIdx Idealize.ShloMosaic.TcCoe

variable (x0 x1 : (⟨S4096x2048, .f32⟩ : BufTy).Contents (Elt Ideal)) (x2 : (⟨S2048x4096, .f32⟩ : BufTy).Contents (Elt Ideal))
  (x3 : (⟨S2048, .f32⟩ : BufTy).Contents (Elt Ideal)) (x4 : (⟨S2048x2048, .f32⟩ : BufTy).Contents (Elt Ideal))
  (x5 : (⟨S2048, .f32⟩ : BufTy).Contents (Elt Ideal))

/-- The joined matrix `[x | h]` at a column of its first half reads `x`. -/
theorem joined_left (p : Fin 4096) (k : Fin 2048) : val_main_v0 (F := Ideal) x0 x1 (ix2 p (colX k)) = x0 (ix2 p k) := by
  unfold val_main_v0
  exact concatenate_cols_left x0 x1 concatenates_S4096x2048_S4096x2048_S4096x4096_d1 p (colX k) k rfl

/-- The joined matrix `[x | h]` at a column of its second half reads `h`, 2048 columns back. -/
theorem joined_right (p : Fin 4096) (k : Fin 2048) : val_main_v0 (F := Ideal) x0 x1 (ix2 p (colH k)) = x1 (ix2 p k) := by
  unfold val_main_v0
  exact concatenate_cols_right x0 x1 concatenates_S4096x2048_S4096x2048_S4096x4096_d1 p (colH k) k (Nat.add_comm _ _)

/-- The joined matrix against the joint weight, at `(p, q)`: the specification's two sums. -/
theorem joint_product (p : Fin 4096) (q : Fin 2048) :
    val_main_v1 (F := Ideal) x0 x1 x2 (ix2 p q)
      = ∑ k : Fin 2048, x0 (ix2 p k) * x2 (ix2 q (colX k)) + ∑ k : Fin 2048, x1 (ix2 p k) * x2 (ix2 q (colH k)) := by
  rw [val_main_v1_apply, sum_halves]
  have el : ∀ c : Fin 4096, lidx_main_v1 (ix2 p q) c = ix2 p c := fun c => funext fun a => Fin.ext (by
    match a with
    | ⟨0, _⟩ => rfl
    | ⟨1, _⟩ => rfl)
  have er : ∀ c : Fin 4096, ridx_main_v1 (ix2 p q) c = ix2 q c := fun c => funext fun a => Fin.ext (by
    match a with
    | ⟨0, _⟩ => rfl
    | ⟨1, _⟩ => rfl)
  refine congrArg₂ (· + ·) (Finset.sum_congr rfl fun k _ => ?_) (Finset.sum_congr rfl fun k _ => ?_)
  · rw [el, er, joined_left]
  · rw [el, er, joined_right]

/-- The bias row broadcast over the batch, at `(p, q)`. -/
theorem bias_hidden (p : Fin 4096) (q : Fin 2048) : val_main_v3 (F := Ideal) x3 (ix2 p q) = x3 (ix1 q) := by
  rw [val_main_v3_apply, val_main_v2_apply]
  exact congrArg x3 (funext fun a => Fin.ext (by
    match a with
    | ⟨0, _⟩ => rfl))

theorem bias_output (p : Fin 4096) (o : Fin 2048) : val_main_v8 (F := Ideal) x5 (ix2 p o) = x5 (ix1 o) := by
  rw [val_main_v8_apply, val_main_v7_apply]
  exact congrArg x5 (funext fun a => Fin.ext (by
    match a with
    | ⟨0, _⟩ => rfl))

/-- The reference's new hidden state is the specification's. -/
theorem hidden_eq : val_main_v5 (F := Ideal) x0 x1 x2 x3 = newHidden x0 x1 x2 x3 := by
  funext i
  obtain ⟨p, q, rfl⟩ : ∃ (p : Fin 4096) (q : Fin 2048), i = ix2 p q := ⟨i 0, i 1, eq_ix2 i⟩
  rw [val_main_v5_apply, val_main_v4_apply, joint_product, bias_hidden]
  rfl

/-- The reference's output is the specification's. -/
theorem output_eq : val_main_v9 (F := Ideal) x0 x1 x2 x3 x4 x5 = output x0 x1 x2 x3 x4 x5 := by
  funext i
  obtain ⟨p, o, rfl⟩ : ∃ (p : Fin 4096) (o : Fin 2048), i = ix2 p o := ⟨i 0, i 1, eq_ix2 i⟩
  rw [val_main_v9_apply, val_main_v6_apply, bias_output, hidden_eq]
  have el : ∀ k : Fin 2048, lidx_main_v6 (ix2 p o) k = ix2 p k := fun k => funext fun a => Fin.ext (by
    match a with
    | ⟨0, _⟩ => rfl
    | ⟨1, _⟩ => rfl)
  have er : ∀ k : Fin 2048, ridx_main_v6 (ix2 p o) k = ix2 o k := fun k => funext fun a => Fin.ext (by
    match a with
    | ⟨0, _⟩ => rfl
    | ⟨1, _⟩ => rfl)
  simp only [el, er]
  rfl

end Cert.ReferenceIdeal.RefValue

end
-- ==== Proof.lean ====
/-
  A fused recurrent cell against its plain reference, on the extended reals.

  Both programs take an input `x` and a hidden state `h` of shape [4096, 2048], a joint weight `W` of shape
  [2048, 4096], an output weight `Wo` of shape [2048, 2048] and two bias vectors, and return

      newHidden = tanh ([x | h] · Wᵀ + b)          output = newHidden · Woᵀ + bo .

  The reference forms `[x | h]` and contracts over all 4096 joint columns. The kernel never forms it: it cuts
  `W` into the 2048 columns that meet `x` and the 2048 that meet `h`, computes `x · Wxᵀ + h · Whᵀ` per tile of
  256 batch rows, and runs 16 such tiles. The two agree entry by entry because a sum over the 4096 joint columns
  is the sum over its first half plus the sum over its second half (`Cert.RnnCell.sum_halves`: commutativity and
  associativity of addition only, so the finiteness of the inputs is never used), every entry of either result
  depends on one batch row only, and a change of float format is the identity on the extended reals.

  Modules: `Spec` states the cell as one function of the arguments and proves the splitting law; `RefValue`
  shows the reference's two results are that function; `Payload` reads the kernel body's two stored tiles
  entry by entry; `Tile` identifies them with the rows of the specification the tile covers; `Blocks` carries
  that from the 16 tiles to the two whole result arrays. Here the three frame claims, the (empty) idealization
  ledger and the equality of results are assembled.
-/
import proofs.«133029_j32607391711506_2_alg».proof.Defs
import proofs.«133029_j32607391711506_2_alg».proof.Proof.Gen.Kernel
import proofs.«133029_j32607391711506_2_alg».proof.Proof.Gen.Kernel.Skeleton
import proofs.«133029_j32607391711506_2_alg».proof.Proof.Gen.Kernel.Launch
import proofs.«133029_j32607391711506_2_alg».proof.Proof.Gen.Kernel.Points
import proofs.«133029_j32607391711506_2_alg».proof.Proof.Gen.Kernel.Frame
import proofs.«133029_j32607391711506_2_alg».proof.Proof.Gen.KernelIdeal
import proofs.«133029_j32607391711506_2_alg».proof.Proof.Gen.KernelIdeal.Skeleton
import proofs.«133029_j32607391711506_2_alg».proof.Proof.Gen.KernelIdeal.Launch
import proofs.«133029_j32607391711506_2_alg».proof.Proof.Gen.KernelIdeal.Points
import proofs.«133029_j32607391711506_2_alg».proof.Proof.Gen.KernelIdeal.Frame
import proofs.«133029_j32607391711506_2_alg».proof.Proof.Gen.ReferenceIdeal
import proofs.«133029_j32607391711506_2_alg».proof.Proof.Gen.KernelIdeal.Value
import proofs.«133029_j32607391711506_2_alg».proof.Proof.Gen.ReferenceIdeal.Run
import proofs.«133029_j32607391711506_2_alg».proof.Proof.Gen.ReferenceIdeal.Read
import proofs.«133029_j32607391711506_2_alg».proof.Proof.Gen.Pre_finite_inputs
import proofs.«133029_j32607391711506_2_alg».proof.Proof.Blocks
import proofs.«133029_j32607391711506_2_alg».proof.Proof.RefValue
import Idealize.ShloMosaic.Adequacy
import Idealize.ShloMosaic.Init

noncomputable section

namespace Cert.Proof

open Idealize.ShloMosaic Idealize.ShloMosaic.TcCoe Idealize.SL.Sem Cert.RnnCell

/-- The kernel as printed terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing, so there is nothing to preserve. -/
theorem preserves : Cert.preserves_Kernel_KernelIdeal := trivial

/-- From memories that agree on the six arguments, the kernel and the reference both end with the output at
    `Cert.RnnCell.output` and the new hidden state at `Cert.RnnCell.newHidden` of those arguments. -/
theorem algebraic : Cert.algebraic_KernelIdeal_ReferenceIdeal := by
  intro m ρ m' ρ' _ hagree
  refine ⟨fun c => output (Cert.KernelIdeal.Blocks.argX m c) (Cert.KernelIdeal.Blocks.argH m c) (Cert.KernelIdeal.Blocks.argW m c)
      (Cert.KernelIdeal.Blocks.argB m c) (Cert.KernelIdeal.Blocks.argWo m c) (Cert.KernelIdeal.Blocks.argBo m c),
    fun c => newHidden (Cert.KernelIdeal.Blocks.argX m c) (Cert.KernelIdeal.Blocks.argH m c) (Cert.KernelIdeal.Blocks.argW m c)
      (Cert.KernelIdeal.Blocks.argB m c),
    Cert.KernelIdeal.Blocks.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v9_eq, Cert.ReferenceIdeal.RefValue.output_eq,
      (hagree c).1, (hagree c).2.1, (hagree c).2.2.1, (hagree c).2.2.2.1, (hagree c).2.2.2.2.1, (hagree c).2.2.2.2.2]
  · rw [(h c).2.1, Cert.ReferenceIdeal.Read.val_main_v5_eq, Cert.ReferenceIdeal.RefValue.hidden_eq,
      (hagree c).1, (hagree c).2.1, (hagree c).2.2.1, (hagree c).2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
